-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64 : Shape := ⟨1, ![64]⟩
abbrev S64x256 : Shape := ⟨2, ![64, 256]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  main_v23

def fn {F : FTy → Type} [FloatOps F] (main_arg0 : FVec F S4096x64 .f32) (main_arg1 : FVec F S64 .f32) (main_arg2 : FVec F S64 .f32) (main_arg3 : FVec F S64x256 .f32) (main_arg4 : FVec F S64x256 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S4096x64 : Shape := ⟨2, ![4096, 64]⟩
abbrev S64 : Shape := ⟨1, ![64]⟩
abbrev S64x256 : Shape := ⟨2, ![64, 256]⟩
abbrev S1x64 : Shape := ⟨2, ![1, 64]⟩
abbrev S4096x64x256 : Shape := ⟨3, ![4096, 64, 256]⟩
abbrev S128x64 : Shape := ⟨2, ![128, 64]⟩
abbrev S128x64x256 : Shape := ⟨3, ![128, 64, 256]⟩
abbrev S128x64x1 : Shape := ⟨3, ![128, 64, 1]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S64x256, .f32⟩
  | .hbm, ⟨5, _⟩ => ⟨S1x64, .f32⟩
  | .hbm, ⟨6, _⟩ => ⟨S1x64, .f32⟩
  | .hbm, ⟨7, _⟩ => ⟨S4096x64x256, .f32⟩
  | .local _ .vmem, ⟨0, _⟩ => ⟨S128x64, .f32⟩
  | .local _ .vmem, ⟨1, _⟩ => ⟨S128x64, .f32⟩
  | .local _ .vmem, ⟨2, _⟩ => ⟨S1x64, .f32⟩
  | .local _ .vmem, ⟨3, _⟩ => ⟨S1x64, .f32⟩
  | .local _ .vmem, ⟨4, _⟩ => ⟨S64x256, .f32⟩
  | .local _ .vmem, ⟨5, _⟩ => ⟨S64x256, .f32⟩
  | .local _ .vmem, ⟨6, _⟩ => ⟨S128x64x256, .f32⟩
  | .local _ .vmem, ⟨7, _⟩ => ⟨S128x64x256, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  broadcasts_S1x64_S128x64 : S1x64.Broadcasts S128x64
  shapeCasts_S128x64_S128x64x1 : S128x64.ShapeCasts S128x64x1
  shapeCasts_S64x256_S1x64x256 : S64x256.ShapeCasts S1x64x256
  broadcasts_S128x64x1_S128x64x256 : S128x64x1.Broadcasts S128x64x256
  broadcasts_S1x64x256_S128x64x256 : S1x64x256.Broadcasts S128x64x256
  inb_S128x64x256_S128x64x256_0_0_0 : ∀ a, (![0, 0, 0] : Fin 3 → Nat) a + S128x64x256.size a ≤ S128x64x256.size a
  h_S128x64x256 : 0 < S128x64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S4096x64.size a
  hwx0_0 : ∀ i : grid0.Coords, EltTy.bits .f32 = 32 ∨ (Rect.block (s := S4096x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x256.size a ≤ S4096x64x256.size a
  hwx0_5 : ∀ i : grid0.Coords, EltTy.bits .f32 = 32 ∨ (Rect.block (s := S4096x64x256) S128x64x256.size (cc0_transform_5 i) (hinb0_5 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S64 : Shape := ⟨1, ![64]⟩
abbrev S64x256 : Shape := ⟨2, ![64, 256]⟩
abbrev S1x64 : Shape := ⟨2, ![1, 64]⟩
abbrev S_ : Shape := ⟨0, ![]⟩
abbrev S4096x64x1 : Shape := ⟨3, ![4096, 64, 1]⟩
abbrev S1x64x256 : Shape := ⟨3, ![1, 64, 256]⟩
abbrev S4096x64x256 : Shape := ⟨3, ![4096, 64, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S64x256, .f32⟩
  | .hbm, ⟨5, _⟩ => ⟨S1x64, .f32⟩
  | .hbm, ⟨6, _⟩ => ⟨S4096x64, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S4096x64x1, .f32⟩
  | .hbm, ⟨15, _⟩ => ⟨S1x64x256, .f32⟩
  | .hbm, ⟨16, _⟩ => ⟨S4096x64x256, .f32⟩
  | .hbm, ⟨17, _⟩ => ⟨S4096x64x256, .f32⟩
  | .hbm, ⟨18, _⟩ => ⟨S4096x64x256, .f32⟩
  | .hbm, ⟨19, _⟩ => ⟨S1x64x256, .f32⟩
  | .hbm, ⟨20, _⟩ => ⟨S4096x64x256, .f32⟩
  | .hbm, ⟨21, _⟩ => ⟨S4096x64x256, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S64x256_S1x64x256_1_2 : S64x256.BroadcastsInDim S1x64x256 (![1, 2] : Fin 2 → Fin S1x64x256.rank)
  bcast_S4096x64x1_S4096x64x256_0_1_2 : S4096x64x1.BroadcastsInDim S4096x64x256 (![0, 1, 2] : Fin 3 → Fin S4096x64x256.rank)
  bcast_S1x64x256_S4096x64x256_0_1_2 : S1x64x256.BroadcastsInDim S4096x64x256 (![0, 1, 2] : Fin 3 → Fin S4096x64x256.rank)

variable [Facts₀]

class Facts : Prop extends Facts₀ where

variable [Facts]
-- ==== Proof.DenseSpec.lean ====
/-
  The function both programs compute, as one array of the five argument arrays.

  For a batch row `r < 4096`, a feature `k < 64` and an output neuron `n < 256`

      out[r, k, n] = max (x[r, k] * w1[k] + b1[k], 0) * W2[k, n] + b2[k, n] :

  each feature of a row goes through its own scalar hidden unit (weight `w1[k]`, bias `b1[k]`, rectified),
  and the rectified value is then mapped affinely to 256 neurons with that feature's row of `W2` and `b2`.
  The entry at `(r, k, n)` therefore depends on exactly one entry of each argument: `x` at `(r, k)`,
  `w1` and `b1` at `k`, `W2` and `b2` at `(k, n)`. The operations are applied in the same order by
  both programs, so the function is stated with the float operations of an arbitrary instance and no
  law of arithmetic is needed to compare the two sides.
-/
import Idealize.ShloMosaic.Lib.ValueIdx

noncomputable section

namespace Cert.DenseMlp

open Idealize.ShloMosaic

variable {F : FTy → Type} [FloatOps F]

/-- The shape of `x`: rows by features. -/
abbrev SRows : Shape := ⟨2, ![4096, 64]⟩
/-- The shape of `w1` and `b1`: one entry per feature. -/
abbrev SFeat : Shape := ⟨1, ![64]⟩
/-- The shape of `W2` and `b2`: features by neurons. -/
abbrev SMap : Shape := ⟨2, ![64, 256]⟩
/-- The shape of the result: rows by features by neurons. -/
abbrev SOut : Shape := ⟨3, ![4096, 64, 256]⟩

/-- `(r, k)` of a result index `(r, k, n)`: where `x` is read. -/
abbrev rowFeat (i : SOut.Idx) : SRows.Idx := fun a => match a with
  | ⟨0, _⟩ => ⟨(i 0).val, (i 0).isLt⟩
  | ⟨1, _⟩ => ⟨(i 1).val, (i 1).isLt⟩

/-- `k` of a result index `(r, k, n)`: where `w1` and `b1` are read. -/
abbrev feat (i : SOut.Idx) : SFeat.Idx := fun a => match a with
  | ⟨0, _⟩ => ⟨(i 1).val, (i 1).isLt⟩

/-- `(k, n)` of a result index `(r, k, n)`: where `W2` and `b2` are read. -/
abbrev featNeuron (i : SOut.Idx) : SMap.Idx := fun a => match a with
  | ⟨0, _⟩ => ⟨(i 1).val, (i 1).isLt⟩
  | ⟨1, _⟩ => ⟨(i 2).val, (i 2).isLt⟩

/-- The result array: `max (x[r,k] * w1[k] + b1[k], 0) * W2[k,n] + b2[k,n]` at `(r, k, n)`. -/
def denseMlp (x : SRows.Idx → Elt F .f32) (w1 b1 : SFeat.Idx → Elt F .f32) (W2 b2 : SMap.Idx → Elt F .f32) :
    SOut.Idx → Elt F .f32 := fun i =>
  FloatOps.addf
    (FloatOps.mulf
      (FloatOps.maximumf (FloatOps.addf (FloatOps.mulf (x (rowFeat i)) (w1 (feat i))) (b1 (feat i)))
        (FloatOps.ofBits .f32 0x00000000#32))
      (W2 (featNeuron i)))
    (b2 (featNeuron i))

end Cert.DenseMlp

end
-- ==== Proof.DenseReference.lean ====
/-
  The reference program's result is the dense function of `DenseSpec`.

  The reference is a chain of broadcasts and entry-by-entry operations: `w1` and `b1` are broadcast along
  the rows, `x * w1 + b1` is rectified against a broadcast zero, the result gets a trailing unit axis and
  is broadcast along the neurons, `W2` and `b2` get a leading unit axis and are broadcast along the rows,
  and the product and sum are taken entry by entry. Read at a result index `(r, k, n)`, every broadcast
  just forgets the coordinates its operand does not have, so the chain reads `x` at `(r, k)`, `w1` and
  `b1` at `k`, `W2` and `b2` at `(k, n)`, and applies the operations of `denseMlp` in its order.
-/
import proofs.«175879_j5557687681688_2_alg».proof.Proof.Gen.ReferenceIdeal.Read
import proofs.«175879_j5557687681688_2_alg».proof.Proof.DenseSpec

noncomputable section

namespace Cert.DenseMlp.Reference

open Idealize.ShloMosaic Cert.ReferenceIdeal Cert.ReferenceIdeal.Read Cert.DenseMlp

variable {F : FTy → Type} [FloatOps F]

/-- The stage that writes the reference's result, at any float instance, is `denseMlp` of the arguments. -/
theorem result_eq (x : (⟨S4096x64, .f32⟩ : BufTy).Contents (Elt F)) (w1 b1 : (⟨S64, .f32⟩ : BufTy).Contents (Elt F))
    (W2 b2 : (⟨S64x256, .f32⟩ : BufTy).Contents (Elt F)) :
    val_main_v14 (F := F) x w1 b1 W2 b2 = denseMlp x w1 b1 W2 b2 := by
  funext i
  -- the composed index maps of the broadcasts are the three projections of `(r, k, n)`
  have hx : idx_main_v7 (idx_main_v9 i) = rowFeat i :=
    funext fun a => Fin.ext (by match a with | ⟨0, _⟩ => rfl | ⟨1, _⟩ => rfl)
  have hw : idx_main_v0 (idx_main_v1 (idx_main_v7 (idx_main_v9 i))) = feat i :=
    funext fun a => Fin.ext (by match a with | ⟨0, _⟩ => rfl)
  have hb : idx_main_v3 (idx_main_v4 (idx_main_v7 (idx_main_v9 i))) = feat i :=
    funext fun a => Fin.ext (by match a with | ⟨0, _⟩ => rfl)
  have hW : idx_main_v8 (idx_main_v10 i) = featNeuron i :=
    funext fun a => Fin.ext (by match a with | ⟨0, _⟩ => rfl | ⟨1, _⟩ => rfl)
  have hB : idx_main_v12 (idx_main_v13 i) = featNeuron i :=
    funext fun a => Fin.ext (by match a with | ⟨0, _⟩ => rfl | ⟨1, _⟩ => rfl)
  rw [val_main_v14_apply, val_main_v11_apply, val_main_v9_apply, val_main_v7_apply, val_main_v6_apply,
    val_main_v5_apply, val_main_v2_apply, val_main_v1_apply, val_main_v0_apply, val_main_v4_apply,
    val_main_v3_apply, val_main_call0_v0_apply, val_main_call0_cst_apply, val_main_v10_apply,
    val_main_v8_apply, val_main_v13_apply, val_main_v12_apply, hx, hw, hb, hW, hB]
  rfl

end Cert.DenseMlp.Reference

end
-- ==== Proof.DenseKernel.lean ====
/-
  The kernel's result array is the dense function of `DenseSpec`.

  The grid has 32 points; point `t` works on rows `128 t … 128 t + 127`. It is handed block `t` of `x`
  (128 rows, all 64 features) and the whole of the four small arrays — `w1` and `b1` as rows of shape [1, 64],
  which the host made from the vectors by a reshape before the launch, `W2` and `b2` as they are — and writes
  back block `t` of the result (128 rows, all features, all neurons). Inside a block the entry at `(p, k, n)`
  is `max (x_blk[p, k] * w1_row[0, k] + b1_row[0, k], 0) * W2[k, n] + b2[k, n]`, so, with `r = 128 t + p`,
  it is the dense function at `(r, k, n)`. The 32 blocks tile the result array (row `r` lies in block `r / 128`),
  hence after the run the whole array is the dense function of the argument arrays.
-/
import proofs.«175879_j5557687681688_2_alg».proof.Proof.Gen.KernelIdeal.Value
import proofs.«175879_j5557687681688_2_alg».proof.Proof.DenseSpec
import Idealize.ShloMosaic.Lib.Pipeline.Value
import Idealize.ShloMosaic.Lib.StableHlo.Run

noncomputable section

namespace Cert.DenseMlp.Kernel

open Idealize.ShloMosaic Idealize.ShloMosaic.TcCoe Idealize.SL.Sem Idealize.ShloMosaic.StableHlo
open Idealize.ShloMosaic.Pipeline (Dat)
open Cert.KernelIdeal Cert.KernelIdeal.Gen Cert.DenseMlp

variable {F : FTy → Type} [FloatOps F]
variable (m : (ℓ : Loc nD τ sig) → Buf (Elt F) ℓ) (ρ : Dev nD → PrngReg)

/-- The dense function of the five argument arrays as launched on core `c`. -/
abbrev result (c : Dev nD) : Buf (Elt F) ((c : Thread nD τ).loc main_v2) :=
  denseMlp (m ((c : Thread nD τ).loc main_arg0)) (m ((c : Thread nD τ).loc main_arg1))
    (m ((c : Thread nD τ).loc main_arg2)) (m ((c : Thread nD τ).loc main_arg3)) (m ((c : Thread nD τ).loc main_arg4))

theorem zero2 : (![0, 0] : Fin 2 → Nat) = fun _ => 0 := funext fun a => by fin_cases a <;> rfl

/-! ## The two rows the host prepares -/

/-- When the region is entered, the first row buffer holds `w1` reshaped to [1, 64]. -/
theorem row_w1 (c : Dev nD) : (V m c main_v0 : S1x64.Idx → Elt F .f32)
    = shapeCast S1x64 (m ((c : Thread nD τ).loc main_arg1) : S64.Idx → Elt F .f32) shapeCasts_S64_S1x64 := by
  dsimp only [Gen.V, Gen.hostOps0]; after_results; rfl

/-- When the region is entered, the second row buffer holds `b1` reshaped to [1, 64]. -/
theorem row_b1 (c : Dev nD) : (V m c main_v1 : S1x64.Idx → Elt F .f32)
    = shapeCast S1x64 (m ((c : Thread nD τ).loc main_arg2) : S64.Idx → Elt F .f32) shapeCasts_S64_S1x64 := by
  dsimp only [Gen.V, Gen.hostOps0]; after_results; rfl

/-- A vector reshaped to a row, read at `(0, k)`, is the vector at `k`. -/
theorem row_apply (v : S64.Idx → Elt F .f32) (j : S1x64.Idx) (k : S64.Idx) (hk : (k 0).val = (j 1).val) :
    shapeCast S1x64 v shapeCasts_S64_S1x64 j = v k := by
  have hj : (j 0).val < 1 := (j 0).isLt
  refine shapeCast_apply v _ j k ?_
  rw [Shape.rowMajor_val_one, Shape.rowMajor_val_two]
  show (k 0).val = (j 0).val * 64 + (j 1).val
  omega

/-! ## What a point's body leaves in the output block -/

/-- The body's stored block, entry by entry: the loads are of the whole staging buffers, and the one store covers
    the block, so the block is the generated entry-by-entry reading `E5` of the five loaded blocks. -/
theorem stored_apply (x0 : Vec F S128x64 .f32) (x1 x2 : Vec F S1x64 .f32) (x3 x4 : Vec F S64x256 .f32)
    (y : S128x64x256.Idx) : out0_5 x0 x1 x2 x3 x4 y = Value.E5 x0 x1 x2 x3 x4 y := by
  unfold out0_5
  simp only [View.ld_unit_zero (S := S128x64) zero2, View.ld_unit_zero (S := S1x64) zero2,
    View.ld_unit_zero (S := S64x256) zero2]
  exact Value.canon5_eq x0 x1 x2 x3 x4 y

/-! ## The windows' block indices over the grid -/

/-- Decided over the 32 points: the blocks of `x` and of the result move together along the rows, point `t` at
    block `t`; every other block index is zero (the small arrays are staged whole). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## Point `t` writes back block `t` of the dense function -/

/-- Entry `y = (p, k, n)` of the block point `t` stores is the dense function at the array index under it,
    `(128 t + p, k, n)`: each of the five loaded blocks is read where that index's projection lies. -/
theorem block_entry (c : Dev nD) (t : Fin cfg0.N) (y : S128x64x256.Idx) :
    Value.E5 (iblk m c 0 t) (iblk m c 1 t) (iblk m c 2 t) (iblk m c 3 t) (iblk m c 4 t) y
      = result m c (((cfg0.win 5).blk t).view.emb y) := by
  obtain ⟨e00, e01, e10, e11, e20, e21, e30, e31, e40, e41, e50, e51, e52⟩ := idx_facts t
  have hy0 : (y 0).val < 128 := (y 0).isLt
  have hy1 : (y 1).val < 64 := (y 1).isLt
  have hy2 : (y 2).val < 256 := (y 2).isLt
  have hx : iblk m c 0 t (Value.ix5_0 y)
      = m ((c : Thread nD τ).loc main_arg0) (rowFeat (((cfg0.win 5).blk t).view.emb y)) := by
    show V m c main_arg0 (((cfg0.win 0).blk t).view.emb (Value.ix5_0 y)) = _
    rw [V_main_arg0]
    refine congrArg _ (funext fun a => Fin.ext ?_)
    match a with
    | ⟨0, _⟩ =>
      show win0_0.index t (0 : Fin 2) * 128 + 1 * (y 0).val = win0_5.index t (0 : Fin 3) * 128 + 1 * (y 0).val
      omega
    | ⟨1, _⟩ =>
      show win0_0.index t (1 : Fin 2) * 64 + 1 * (y 1).val = win0_5.index t (1 : Fin 3) * 64 + 1 * (y 1).val
      omega
  have hw : iblk m c 1 t (Value.ix5_1 y)
      = m ((c : Thread nD τ).loc main_arg1) (feat (((cfg0.win 5).blk t).view.emb y)) := by
    show V m c main_v0 (((cfg0.win 1).blk t).view.emb (Value.ix5_1 y)) = _
    rw [row_w1]
    refine row_apply _ _ _ ?_
    show win0_5.index t (1 : Fin 3) * 64 + 1 * (y 1).val = win0_1.index t (1 : Fin 2) * 64 + 1 * (y 1).val
    omega
  have hb : iblk m c 2 t (Value.ix5_2 y)
      = m ((c : Thread nD τ).loc main_arg2) (feat (((cfg0.win 5).blk t).view.emb y)) := by
    show V m c main_v1 (((cfg0.win 2).blk t).view.emb (Value.ix5_2 y)) = _
    rw [row_b1]
    refine row_apply _ _ _ ?_
    show win0_5.index t (1 : Fin 3) * 64 + 1 * (y 1).val = win0_2.index t (1 : Fin 2) * 64 + 1 * (y 1).val
    omega
  have hW : iblk m c 3 t (Value.ix5_3 y)
      = m ((c : Thread nD τ).loc main_arg3) (featNeuron (((cfg0.win 5).blk t).view.emb y)) := by
    show V m c main_arg3 (((cfg0.win 3).blk t).view.emb (Value.ix5_3 y)) = _
    rw [V_main_arg3]
    refine congrArg _ (funext fun a => Fin.ext ?_)
    match a with
    | ⟨0, _⟩ =>
      show win0_3.index t (0 : Fin 2) * 64 + 1 * (y 1).val = win0_5.index t (1 : Fin 3) * 64 + 1 * (y 1).val
      omega
    | ⟨1, _⟩ =>
      show win0_3.index t (1 : Fin 2) * 256 + 1 * (y 2).val = win0_5.index t (2 : Fin 3) * 256 + 1 * (y 2).val
      omega
  have hB : iblk m c 4 t (Value.ix5_4 y)
      = m ((c : Thread nD τ).loc main_arg4) (featNeuron (((cfg0.win 5).blk t).view.emb y)) := by
    show V m c main_arg4 (((cfg0.win 4).blk t).view.emb (Value.ix5_4 y)) = _
    rw [V_main_arg4]
    refine congrArg _ (funext fun a => Fin.ext ?_)
    match a with
    | ⟨0, _⟩ =>
      show win0_4.index t (0 : Fin 2) * 64 + 1 * (y 1).val = win0_5.index t (1 : Fin 3) * 64 + 1 * (y 1).val
      omega
    | ⟨1, _⟩ =>
      show win0_4.index t (1 : Fin 2) * 256 + 1 * (y 2).val = win0_5.index t (2 : Fin 3) * 256 + 1 * (y 2).val
      omega
  show FloatOps.addf (FloatOps.mulf (FloatOps.maximumf (FloatOps.addf (FloatOps.mulf (iblk m c 0 t (Value.ix5_0 y))
      (iblk m c 1 t (Value.ix5_1 y))) (iblk m c 2 t (Value.ix5_2 y))) (Scalar.ofBits .f32 0x00000000#32))
      (iblk m c 3 t (Value.ix5_3 y))) (iblk m c 4 t (Value.ix5_4 y)) = _
  rw [hx, hw, hb, hW, hB]
  rfl

/-- WHAT POINT `t` WRITES BACK is block `t` of the dense function of the arguments. -/
theorem flushed_eq (c : Dev nD) (t : Fin cfg0.N) :
    (dats m 0 c).flushed 5 t = ((cfg0.win 5).blk t).view.read (Elt F) (result m c) := by
  rw [Value.flushed5]
  funext y
  show out0_5 (iblk m c 0 t) (iblk m c 1 t) (iblk m c 2 t) (iblk m c 3 t) (iblk m c 4 t) y
    = result m c (((cfg0.win 5).blk t).view.emb y)
  exact (stored_apply (iblk m c 0 t) (iblk m c 1 t) (iblk m c 2 t) (iblk m c 3 t) (iblk m c 4 t) y).trans
    (block_entry m c t y)

/-! ## The blocks tile the result array -/

/-- An index of the result array is in point `t`'s block iff each coordinate is in the block's range on its axis. -/
theorem mem_blk (t : Fin cfg0.N) (i : S4096x64x256.Idx) :
    i ∈ ((cfg0.win 5).blk t).view.set ↔ ∀ a : Fin 3, win0_5.index t a * S128x64x256.size a ≤ (i a).val
      ∧ (i a).val < win0_5.index t a * S128x64x256.size a + S128x64x256.size a := by
  show i ∈ ((View.whole main_v2).slice (win0_5.rect t)).set ↔ _
  rw [View.set_slice_whole, Rect.mem_set_unit]
  exact Iff.rfl

/-- Row `r` of the result lies in the block of point `r / 128`, which is written back. -/
theorem cover (i : S4096x64x256.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hi2 : (i 2).val < 256 := (i 2).isLt
  have hN : (i 0).val / 128 < cfg0.N := Nat.lt_of_lt_of_eq (by omega : (i 0).val / 128 < 32) N_0.symm
  obtain ⟨-, -, -, -, -, -, -, -, -, -, e50, e51, e52⟩ := idx_facts ⟨(i 0).val / 128, hN⟩
  refine ⟨⟨(i 0).val / 128, hN⟩, flush0_5 _, ?_⟩
  rw [mem_blk]
  intro a
  match a with
  | ⟨0, _⟩ =>
    show win0_5.index ⟨(i 0).val / 128, hN⟩ (0 : Fin 3) * 128 ≤ (i 0).val
      ∧ (i 0).val < win0_5.index ⟨(i 0).val / 128, hN⟩ (0 : Fin 3) * 128 + 128
    rw [e50]
    show (i 0).val / 128 * 128 ≤ (i 0).val ∧ (i 0).val < (i 0).val / 128 * 128 + 128
    omega
  | ⟨1, _⟩ =>
    show win0_5.index ⟨(i 0).val / 128, hN⟩ (1 : Fin 3) * 64 ≤ (i 1).val
      ∧ (i 1).val < win0_5.index ⟨(i 0).val / 128, hN⟩ (1 : Fin 3) * 64 + 64
    rw [e51]
    omega
  | ⟨2, _⟩ =>
    show win0_5.index ⟨(i 0).val / 128, hN⟩ (2 : Fin 3) * 256 ≤ (i 2).val
      ∧ (i 2).val < win0_5.index ⟨(i 0).val / 128, hN⟩ (2 : Fin 3) * 256 + 256
    rw [e52]
    omega

/-! ## The array after the run, and the run -/

/-- THE RESULT ARRAY after the run is the dense function of the argument arrays. -/
theorem final (c : Dev nD) : (dats m 0 c).arrAt 5 cfg0.N = result m c :=
  (dats m 0 c).arrAt_eq_of_cover 5 (result m c) (fun t _ => flushed_eq m c t) cover

/-- Every weakly fair execution of the kernel's program terminates with the result array at the dense function of
    the arguments and the arguments unchanged. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.DenseMlp.Kernel

end
-- ==== Proof.lean ====
/-
  The kernel and its reference compute one function of the five argument arrays,

      out[r, k, n] = max (x[r, k] * w1[k] + b1[k], 0) * W2[k, n] + b2[k, n],

  with the operations applied in the same order on both sides, so the two results are equal entry by entry on the
  extended reals with no law of arithmetic and without using that the inputs are finite.

  `DenseSpec` states the function; `DenseReference` reads the reference's chain of broadcasts and entry-by-entry
  operations at an index and finds the function; `DenseKernel` reads what each of the 32 grid points writes back
  (block `t` holds rows `128 t … 128 t + 127`) and shows the blocks tile the result array, so the kernel's array
  after the run is the function too. The three frames are the generated runs; the idealized kernel is the printed
  kernel read on the extended reals, no operation rewritten, so there is nothing to preserve.
-/
import proofs.«175879_j5557687681688_2_alg».proof.Defs
import proofs.«175879_j5557687681688_2_alg».proof.Proof.Gen.Kernel
import proofs.«175879_j5557687681688_2_alg».proof.Proof.Gen.Kernel.Skeleton
import proofs.«175879_j5557687681688_2_alg».proof.Proof.Gen.Kernel.Launch
import proofs.«175879_j5557687681688_2_alg».proof.Proof.Gen.Kernel.Points
import proofs.«175879_j5557687681688_2_alg».proof.Proof.Gen.Kernel.Frame
import proofs.«175879_j5557687681688_2_alg».proof.Proof.Gen.KernelIdeal
import proofs.«175879_j5557687681688_2_alg».proof.Proof.Gen.KernelIdeal.Skeleton
import proofs.«175879_j5557687681688_2_alg».proof.Proof.Gen.KernelIdeal.Launch
import proofs.«175879_j5557687681688_2_alg».proof.Proof.Gen.KernelIdeal.Points
import proofs.«175879_j5557687681688_2_alg».proof.Proof.Gen.KernelIdeal.Frame
import proofs.«175879_j5557687681688_2_alg».proof.Proof.Gen.ReferenceIdeal
import proofs.«175879_j5557687681688_2_alg».proof.Proof.Gen.Pre_finite_inputs
import proofs.«175879_j5557687681688_2_alg».proof.Proof.Gen.KernelIdeal.Value
import proofs.«175879_j5557687681688_2_alg».proof.Proof.Gen.ReferenceIdeal.Run
import proofs.«175879_j5557687681688_2_alg».proof.Proof.Gen.ReferenceIdeal.Read
import proofs.«175879_j5557687681688_2_alg».proof.Proof.DenseSpec
import proofs.«175879_j5557687681688_2_alg».proof.Proof.DenseReference
import proofs.«175879_j5557687681688_2_alg».proof.Proof.DenseKernel
import Idealize.ShloMosaic.Adequacy
import Idealize.ShloMosaic.Init

noncomputable section

namespace Cert.Proof

open Idealize.ShloMosaic Idealize.SL.Sem

/-- The printed kernel runs and leaves its arguments as they were: the generated frame. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference runs and leaves its arguments as they were: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's both end at the
    dense function of those arguments: the kernel's by its 32 blocks, the reference's by its operations read at an
    index. -/
theorem algebraic : Cert.algebraic_KernelIdeal_ReferenceIdeal := by
  intro m ρ m' ρ' _ hagree
  refine ⟨fun c => Cert.DenseMlp.Kernel.result (F := Ideal) m c, Cert.DenseMlp.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.DenseMlp.Reference.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
